-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4x2048x4096 .f32) (main_arg1 : IVec S16384x4096 32) (main_arg2 : FVec F S16384 .f32) (main_arg3 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4x2048x4096 : Shape := ⟨3, ![4, 2048, 4096]⟩
abbrev S16384x4096 : Shape := ⟨2, ![16384, 4096]⟩
abbrev S16384 : Shape := ⟨1, ![16384]⟩
abbrev S8192x4096 : Shape := ⟨2, ![8192, 4096]⟩
abbrev S16384x1 : Shape := ⟨2, ![16384, 1]⟩
abbrev S1x16384 : Shape := ⟨2, ![1, 16384]⟩
abbrev S8192x16384 : Shape := ⟨2, ![8192, 16384]⟩
abbrev S2048x1024 : Shape := ⟨2, ![2048, 1024]⟩
abbrev S1x2048 : Shape := ⟨2, ![1, 2048]⟩
abbrev S2048x2048 : Shape := ⟨2, ![2048, 2048]⟩
abbrev S4x2048x16384 : Shape := ⟨3, ![4, 2048, 16384]⟩

abbrev nBuf : Space → Nat
  | .hbm => 14
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S16384, .f32⟩
  | .hbm, ⟨3, _⟩ => ⟨S16384, .f32⟩
  | .hbm, ⟨4, _⟩ => ⟨S8192x4096, .f32⟩
  | .hbm, ⟨5, _⟩ => ⟨S8192x4096, .bf16⟩
  | .hbm, ⟨6, _⟩ => ⟨S16384x4096, .f32⟩
  | .hbm, ⟨7, _⟩ => ⟨S16384x1, .f32⟩
  | .hbm, ⟨8, _⟩ => ⟨S16384x4096, .f32⟩
  | .hbm, ⟨9, _⟩ => ⟨S16384x4096, .f32⟩
  | .hbm, ⟨10, _⟩ => ⟨S16384x4096, .bf16⟩
  | .hbm, ⟨11, _⟩ => ⟨S1x16384, .f32⟩
  | .hbm, ⟨12, _⟩ => ⟨S8192x16384, .f32⟩
  | .hbm, ⟨13, _⟩ => ⟨S4x2048x16384, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x2048, .f32⟩
  | .local _ .vmem, ⟨5, _⟩ => ⟨S1x2048, .f32⟩
  | .local _ .vmem, ⟨6, _⟩ => ⟨S2048x2048, .f32⟩
  | .local _ .vmem, ⟨7, _⟩ => ⟨S2048x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  bitsLt_bf16_f32 : FTy.bits .bf16 < FTy.bits .f32
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  shapeCasts_S16384_S1x16384 : S16384.ShapeCasts S1x16384
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  shapeCasts_S8192x16384_S4x2048x16384 : S8192x16384.ShapeCasts S4x2048x16384
  dot_S2048x1024_S2048x1024_S2048x2048_1_1_0_0_n_n_wf : DotDims.WF S2048x1024 S2048x1024 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S16384x4096.size a
  hwx0_1 : ∀ i : grid0.Coords, EltTy.bits .bf16 = 32 ∨ (Rect.block (s := S16384x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S8192x16384.size a
  hwx0_3 : ∀ i : grid0.Coords, EltTy.bits .f32 = 32 ∨ (Rect.block (s := S8192x16384) S2048x2048.size (cc0_transform_3 i) (hinb0_3 i)).WholeWords (EltTy.packing .f32)

variable [Facts₀]

def dot_S2048x1024_S2048x1024_S2048x2048_1_1_0_0_n_n : DotDims S2048x1024 S2048x1024 S2048x2048 where
  lhsContracting := [1]
  rhsContracting := [1]
  lhsNonContracting := [0]
  rhsNonContracting := [0]
  lhsBatch := []
  rhsBatch := []
  wf := dot_S2048x1024_S2048x1024_S2048x2048_1_1_0_0_n_n_wf

abbrev win0_0 : Pipeline.Window sig grid0 :=
  Pipeline.Window.ofSpec (Memref.whole main_v1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S2048x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S16384 : Shape := ⟨1, ![16384]⟩
abbrev S16384x1 : Shape := ⟨2, ![16384, 1]⟩
abbrev S4x2048x16384 : Shape := ⟨3, ![4, 2048, 16384]⟩
abbrev S1x1x16384 : Shape := ⟨3, ![1, 1, 16384]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S16384, .f32⟩
  | .hbm, ⟨3, _⟩ => ⟨S16384, .f32⟩
  | .hbm, ⟨4, _⟩ => ⟨S16384x4096, .f32⟩
  | .hbm, ⟨5, _⟩ => ⟨S16384x1, .f32⟩
  | .hbm, ⟨6, _⟩ => ⟨S16384x4096, .f32⟩
  | .hbm, ⟨7, _⟩ => ⟨S16384x4096, .f32⟩
  | .hbm, ⟨8, _⟩ => ⟨S4x2048x16384, .f32⟩
  | .hbm, ⟨9, _⟩ => ⟨S1x1x16384, .f32⟩
  | .hbm, ⟨10, _⟩ => ⟨S4x2048x16384, .f32⟩
  | .hbm, ⟨11, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.LibDenseT.lean ====
/-
  General lemmas for a matrix product whose right operand is stored transposed, over variable extents, at the
  extended reals.

  * `trans_sum`: for the dimension numbers "M×K by N×K" (contract the left operand's axis 1 with the right
    operand's axis 1, no batch axis), the sum over the contraction index of the operands' products at the result
    index (i, j) is `∑ k : Fin K, l (i, k) * r (j, k)`.
  * `matmul_zero_trans` / `dotGeneral_trans`: hence a vector-unit matrix product into a zero accumulator, and the
    host's `dot_general`, read at (i, j), are both that sum.
-/
import Idealize.ShloMosaic.Lib.ValueIdx
import Idealize.ShloMosaic.Lib.Pipeline.Value
import Idealize.ShloMosaic.PureOps.Ideal.Laws

noncomputable section

namespace Cert.LibDenseT

open Idealize.ShloMosaic Idealize.ShloMosaic.ValueIdx

/-- The dimension numbers `<[1], [1], [0], [0], [], []>` over any well-formedness witness: two records with these
    axis lists differ only in that witness, so every printed record of this kind is one of these by unfolding. -/
abbrev transOf {M K N : Nat}
    (wf : DotDims.WF (⟨2, ![M, K]⟩ : Shape) ⟨2, ![N, K]⟩ ⟨2, ![M, N]⟩ [1] [1] [0] [0] [] []) :
    DotDims (⟨2, ![M, K]⟩ : Shape) ⟨2, ![N, K]⟩ ⟨2, ![M, N]⟩ :=
  { lhsContracting := [1], rhsContracting := [1], lhsNonContracting := [0], rhsNonContracting := [0],
    lhsBatch := [], rhsBatch := [], wf := wf }

variable {M K N : Nat} (wf : DotDims.WF (⟨2, ![M, K]⟩ : Shape) ⟨2, ![N, K]⟩ ⟨2, ![M, N]⟩ [1] [1] [0] [0] [] [])

/-- The left operand's row is the result's row. -/
theorem lhs_row (i : (⟨2, ![M, N]⟩ : Shape).Idx) (q : (transOf wf).contr.Idx) :
    ((transOf wf).lhsIdx i q 0).val = (i 0).val := by
  unfold DotDims.lhsIdx
  rw [dif_neg (show ¬(0 : Fin 2) ∈ (transOf wf).lhsBatch from List.not_mem_nil),
    dif_pos (show (0 : Fin 2) ∈ (transOf wf).lhsNonContracting from List.mem_singleton.mpr rfl)]
  rfl

/-- The right operand's row is the result's column. -/
theorem rhs_row (i : (⟨2, ![M, N]⟩ : Shape).Idx) (q : (transOf wf).contr.Idx) :
    ((transOf wf).rhsIdx i q 0).val = (i 1).val := by
  unfold DotDims.rhsIdx
  rw [dif_neg (show ¬(0 : Fin 2) ∈ (transOf wf).rhsBatch from List.not_mem_nil),
    dif_pos (show (0 : Fin 2) ∈ (transOf wf).rhsNonContracting from List.mem_singleton.mpr rfl)]
  rfl

/-- The contraction sum at (i, j), re-indexed by the one contracted coordinate. -/
theorem trans_sum (l : (⟨2, ![M, K]⟩ : Shape).Idx → EReal) (r : (⟨2, ![N, K]⟩ : Shape).Idx → EReal)
    (i : Fin M) (j : Fin N) :
    ∑ q : (transOf wf).contr.Idx, l ((transOf wf).lhsIdx (ix2 i j) q) * r ((transOf wf).rhsIdx (ix2 i j) q)
      = ∑ k : Fin K, l (ix2 i k) * r (ix2 j k) := by
  rw [← Equiv.sum_comp (contrEquiv1 (transOf wf) K rfl rfl).symm]
  refine Finset.sum_congr rfl fun k _ => ?_
  have hk := contrEquiv1_symm_val (transOf wf) K rfl rfl k
  have el : (transOf wf).lhsIdx (ix2 i j) ((contrEquiv1 (transOf wf) K rfl rfl).symm k) = ix2 i k :=
    funext fun a => Fin.ext (by
      match a with
      | ⟨0, _⟩ => exact lhs_row wf _ _
      | ⟨1, _⟩ => exact ((transOf wf).lhsIdx_val_of_single rfl _ _).trans hk)
  have er : (transOf wf).rhsIdx (ix2 i j) ((contrEquiv1 (transOf wf) K rfl rfl).symm k) = ix2 j k :=
    funext fun a => Fin.ext (by
      match a with
      | ⟨0, _⟩ => exact rhs_row wf _ _
      | ⟨1, _⟩ => exact ((transOf wf).rhsIdx_val_of_single rfl _ _).trans hk)
  rw [el, er]

/-- A matrix product on the vector unit into the zero accumulator, read at (i, j). -/
theorem matmul_zero_trans {φ₁ φ₂ : FTy} (prec : Option ContractPrecision)
    (l : FVec Ideal (⟨2, ![M, K]⟩ : Shape) φ₁) (r : FVec Ideal (⟨2, ![N, K]⟩ : Shape) φ₂) (i : Fin M) (j : Fin N) :
    FloatOps.matmul (transOf wf) prec l r (constant (⟨2, ![M, N]⟩ : Shape) .f32 0x00000000#32) (ix2 i j)
      = ∑ k : Fin K, l (ix2 i k) * r (ix2 j k) :=
  (Ideal.matmul_constant_zero_apply (transOf wf) prec l r (ix2 i j)).trans (trans_sum wf l r i j)

/-- The host's `dot_general` with the same dimension numbers, read at (i, j): the same sum. -/
theorem dotGeneral_trans {φ₁ φ₂ : FTy} (prec : Option ContractPrecision) (sched : HostSchedule)
    (l : FVec Ideal (⟨2, ![M, K]⟩ : Shape) φ₁) (r : FVec Ideal (⟨2, ![N, K]⟩ : Shape) φ₂) (i : Fin M) (j : Fin N) :
    FloatOps.dotGeneral (transOf wf) prec sched l r (ix2 i j) = ∑ k : Fin K, l (ix2 i k) * r (ix2 j k) :=
  (Ideal.dotGeneral_apply (transOf wf) prec sched l r (ix2 i j)).trans (trans_sum wf l r i j)

end Cert.LibDenseT

end
-- ==== Proof.Payloads.lean ====
/-
  What the kernel body stores, entry by entry, on the extended reals.

  The body has three stores into its [2048, 2048] output block:
    * at the first contraction step it stores zeros;
    * at every step it stores  acc + x · yᵀ,  where acc is the block as it stands, x the [2048, 1024] block of
      activations and y the [2048, 1024] block of weights: entry (p, q) is  acc[p, q] + Σ_{k < 1024} x[p, k] · y[q, k];
    * at the last step it stores  acc + the bias row spread down the rows: entry (p, q) is  acc[p, q] + bias[0, q].
-/
import proofs.«103482_j45165876084880_1_alg».proof.Proof.Gen.KernelIdeal.Skeleton
import proofs.«103482_j45165876084880_1_alg».proof.Proof.LibDenseT
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-- The first store writes zeros. -/
theorem pay1_apply (i : S2048x2048.Idx) : k0_pay1 (F := Ideal) i = 0 := by
  unfold k0_pay1
  show Ideal.ofBits .f32 0x00000000#32 = 0
  exact Ideal.ofBits_zero_f32

/-- The accumulating store: the block as it stands plus the product of the two input blocks, the second transposed. -/
theorem pay2_apply (v3 : Vec Ideal S2048x2048 .f32) (v5 v7 : Vec Ideal S2048x1024 .bf16) (p q : Fin 2048) :
    k0_pay2 v3 v5 v7 (ix2 p q) = v3 (ix2 p q) + ∑ k : Fin 1024, v5 (ix2 p k) * v7 (ix2 q k) := by
  unfold k0_pay2
  simp only [shapeCast_self]
  exact congrArg (v3 (ix2 p q) + ·)
    (Cert.LibDenseT.matmul_zero_trans (M := 2048) (K := 1024) (N := 2048)
      dot_S2048x1024_S2048x1024_S2048x2048_1_1_0_0_n_n.wf none v5 v7 p q)

/-- The closing store: the block as it stands plus the bias row, the same down every row. -/
theorem pay3_apply (v15 : Vec Ideal S2048x2048 .f32) (v17 : Vec Ideal S1x2048 .f32) (p q : Fin 2048) :
    k0_pay3 v15 v17 (ix2 p q) = v15 (ix2 p q) + v17 (ix2 (0 : Fin 1) q) := by
  unfold k0_pay3
  simp only [shapeCast_self]
  exact congrArg (v15 (ix2 p q) + ·) (broadcastTo_1b_ab_apply v17 broadcasts_S1x2048_S2048x2048 p q)

end Cert.KernelIdeal.Pay

end
-- ==== Proof.Pieces.lean ====
/-
  What each of the body's three control cases leaves in the output block, as the body's stored values.

  The body runs in one of three ways, by the contraction step k of the grid point:
    * first step (k = 0): it stores zeros, reads them back, and stores zeros + x · yᵀ;
    * a middle step: it reads the block acc left by the step before and stores acc + x · yᵀ;
    * last step (k = 3): it stores acc + x · yᵀ, reads that back, and stores it plus the bias row.
  In every case the last store covers the whole block, so the block ends at that store's value; a value read back
  from a store that covered the block is that store's value.
-/
import proofs.«103482_j45165876084880_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

/-- Every load and store of the body starts at the block's origin. -/
theorem origin : (![0, 0] : Fin 2 → Nat) = fun _ => 0 := funext fun a => by fin_cases a <;> rfl

/-- A middle step leaves the block it found plus the product of the two input blocks. -/
theorem middle_step (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S2048x2048 .f32) (harg6 : arg6.IsWhole) (hc0 : ¬cond0_0 i) (hc1 : ¬cond0_1 i)
    (x0 : Vec F S2048x1024 .bf16) (x1 : Vec F S2048x1024 .bf16) (x2 : Vec F S1x2048 .f32) (xo3 : Vec F S2048x2048 .f32) :
    out0_B_3 c i arg3 harg3 arg4 harg4 arg5 harg5 arg6 harg6 hc0 hc1 x0 x1 x2 xo3 = k0_pay2 xo3 x0 x1 := by
  unfold out0_B_3
  rw [View.read_writes_eq_canon _ _ _ (cover0_B_3 c i arg3 harg3 arg4 harg4 arg5 harg5 arg6 harg6 hc0 hc1 x0 x1 x2 xo3)]
  unfold kernelRun0_B
  dsimp only
  rw [View.canon_unit_zero origin]
  simp only [View.readAt_eq_ld, harg3.read_unread, harg4.read_unread, harg6.read_unread,
    View.ld_unit_zero (S := S2048x2048) origin, View.ld_unit_zero (S := S2048x1024) origin]

/-- The first step leaves the zero block plus the product of the two input blocks. -/
theorem first_step (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S2048x2048 .f32) (harg6 : arg6.IsWhole) (hc0 : cond0_0 i) (hc1 : ¬cond0_1 i)
    (x0 : Vec F S2048x1024 .bf16) (x1 : Vec F S2048x1024 .bf16) (x2 : Vec F S1x2048 .f32) :
    out0_A_3 c i arg3 harg3 arg4 harg4 arg5 harg5 arg6 harg6 hc0 hc1 x0 x1 x2 = k0_pay2 (k0_pay1 (F := F)) x0 x1 := by
  unfold out0_A_3
  rw [View.read_writes_eq_canon _ _ _ (cover0_A_3 c i arg3 harg3 arg4 harg4 arg5 harg5 arg6 harg6 hc0 hc1 x0 x1 x2)]
  unfold kernelRun0_A
  dsimp only
  sl_unfold_words
  rw [View.canon_cons_unit_zero (S := S2048x2048) origin, View.readCov_unit_zero (S := S2048x2048) _ origin]
  simp only [View.readAt_eq_ld, harg3.read_unread, harg4.read_unread,
    View.ld_unit_zero (S := S2048x2048) origin, View.ld_unit_zero (S := S2048x1024) origin]

/-- The last step leaves the block it found plus the product of the two input blocks, plus the bias row. -/
theorem last_step (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S2048x2048 .f32) (harg6 : arg6.IsWhole) (hc0 : ¬cond0_0 i) (hc1 : cond0_1 i)
    (x0 : Vec F S2048x1024 .bf16) (x1 : Vec F S2048x1024 .bf16) (x2 : Vec F S1x2048 .f32) (xo3 : Vec F S2048x2048 .f32) :
    out0_C_3 c i arg3 harg3 arg4 harg4 arg5 harg5 arg6 harg6 hc0 hc1 x0 x1 x2 xo3 = k0_pay3 (k0_pay2 xo3 x0 x1) x2 := by
  unfold out0_C_3
  rw [View.read_writes_eq_canon _ _ _ (cover0_C_3 c i arg3 harg3 arg4 harg4 arg5 harg5 arg6 harg6 hc0 hc1 x0 x1 x2 xo3)]
  unfold kernelRun0_C
  dsimp only
  sl_unfold_words
  rw [View.canon_cons_unit_zero (S := S2048x2048) origin, View.readCov_unit_zero (S := S2048x2048) _ origin]
  simp only [View.readAt_eq_ld, harg3.read_unread, harg4.read_unread, harg5.read_unread, harg6.read_unread,
    View.ld_unit_zero (S := S2048x2048) origin, View.ld_unit_zero (S := S2048x1024) origin,
    View.ld_unit_zero (S := S1x2048) origin]

end Cert.KernelIdeal.Pieces

end
-- ==== Proof.LibTileSum.lean ====
/-
  General lemmas about a sum accumulated tile by tile.
  * `sum_fin_mul`: a sum over i < a of sums over j < b of h (i·b + j) is the sum of h over all n < a·b.
  * `acc_closed`: an accumulator that restarts from zero every K-th step and otherwise adds the step's term holds,
    at step K·p + k (k < K), the sum of the terms of steps K·p … K·p + k.
-/
import Mathlib

namespace Cert.Lib.TileSum

open Finset

/-- A double sum over a grid of a·b cells, row by row, is the sum over the flattened cell number. -/
theorem sum_fin_mul {M : Type*} [AddCommMonoid M] (a b : ℕ) (h : ℕ → M) :
    ∑ i : Fin a, ∑ j : Fin b, h (i.val * b + j.val) = ∑ n : Fin (a * b), h n.val := by
  rw [← Fintype.sum_prod_type (f := fun q : Fin a × Fin b => h (q.1.val * b + q.2.val))]
  rw [← Equiv.sum_comp finProdFinEquiv (fun n : Fin (a * b) => h n.val)]
  refine Finset.sum_congr rfl fun q _ => ?_
  obtain ⟨x, y⟩ := q
  show h (x.val * b + y.val) = h (finProdFinEquiv (x, y)).val
  congr 1
  simp [finProdFinEquiv]
  ring

/-- An accumulator restarted every K steps: its value inside period p. -/
theorem acc_closed {M : Type*} [AddCommMonoid M] (K : ℕ) (hK : 0 < K) (f : ℕ → M) (acc : ℕ → M)
    (h0 : acc 0 = 0 + f 0)
    (hs : ∀ n, acc (n + 1) = if (n + 1) % K = 0 then 0 + f (n + 1) else acc n + f (n + 1))
    (p k : ℕ) (hk : k < K) : acc (K * p + k) = ∑ j ∈ Finset.range (k + 1), f (K * p + j) := by
  induction k with
  | zero =>
    rw [Finset.sum_range_one, Nat.add_zero]
    cases hp : K * p with
    | zero => rw [h0, zero_add]
    | succ m =>
      have hm : (m + 1) % K = 0 := by rw [← hp]; exact Nat.mul_mod_right K p
      rw [hs m, if_pos hm, zero_add]
  | succ k ih =>
    have e : K * p + (k + 1) = (K * p + k) + 1 := by ring
    have hne : ¬ ((K * p + k) + 1) % K = 0 := by
      have : ((K * p + k) + 1) % K = k + 1 := by
        rw [Nat.add_assoc, Nat.mul_add_mod, Nat.mod_eq_of_lt hk]
      omega
    rw [e, hs, if_neg hne, ih (by omega), Finset.sum_range_succ (fun j => f (K * p + j)) (k + 1)]
    rfl

end Cert.Lib.TileSum
-- ==== Proof.Spec.lean ====
/-
  The function both programs compute, written once over the argument arrays, and the law that joins the kernel's
  tile-by-tile accumulation to it.

  With a = the activations, a [4, 2048, 4096] array, w = a [16384, 4096] weight matrix (in both programs: the integer
  weights converted to reals and scaled row by row) and b = the bias, entry (s, r, n) of the result is
      Σ_{k < 4096} a[s, r, k] · w[n, k]  +  b[n].
  The kernel works on the activations flattened to 8192 = 4 · 2048 rows, and cuts the contraction into four stretches
  of 1024; sums of extended reals may be regrouped freely (addition is commutative and associative there), so the four
  partial sums added in order are the whole sum.
-/
import Idealize.ShloMosaic.PureOps.Ideal
import Idealize.ShloMosaic.Lib.ValueIdx
import proofs.«103482_j45165876084880_1_alg».proof.Proof.LibTileSum

noncomputable section

namespace Cert.Spec

open Idealize.ShloMosaic Idealize.ShloMosaic.ValueIdx

/-- The flattened form: row r of the [8192, 4096] activations against row n of the weights, plus the bias row. -/
def G2 (a : (⟨2, ![8192, 4096]⟩ : Shape).Idx → EReal) (w : (⟨2, ![16384, 4096]⟩ : Shape).Idx → EReal)
    (b : (⟨2, ![1, 16384]⟩ : Shape).Idx → EReal) : (⟨2, ![8192, 16384]⟩ : Shape).Idx → EReal :=
  fun i => (∑ k : Fin 4096, a (ix2 (i 0) k) * w (ix2 (i 1) k)) + b (ix2 (0 : Fin 1) (i 1))

/-- The result as the reference shapes it. -/
def G (a : (⟨3, ![4, 2048, 4096]⟩ : Shape).Idx → EReal) (w : (⟨2, ![16384, 4096]⟩ : Shape).Idx → EReal)
    (b : (⟨1, ![16384]⟩ : Shape).Idx → EReal) : (⟨3, ![4, 2048, 16384]⟩ : Shape).Idx → EReal :=
  fun i => (∑ k : Fin 4096, a (ix3 (i 0) (i 1) k) * w (ix2 (i 2) k)) + b (ix1 (i 2))

/-- Entry (r, c) of a matrix by natural-number coordinates, zero outside it: sums over tiles are stated with these, so
    that the arithmetic of tile offsets is arithmetic of naturals. -/
def at2 {n0 n1 : Nat} (x : (⟨2, ![n0, n1]⟩ : Shape).Idx → EReal) (r c : Nat) : EReal :=
  if h : r < n0 ∧ c < n1 then x (ix2 ⟨r, h.1⟩ ⟨c, h.2⟩) else 0

theorem at2_eq {n0 n1 : Nat} (x : (⟨2, ![n0, n1]⟩ : Shape).Idx → EReal) (i : Fin n0) (j : Fin n1) :
    at2 x i.val j.val = x (ix2 i j) := by
  unfold at2
  rw [dif_pos ⟨i.isLt, j.isLt⟩]

/-- Four stretches of 1024 products, summed stretch by stretch, are the 4096 products summed. -/
theorem four_stretches (h : ℕ → EReal) :
    ∑ j ∈ Finset.range 4, ∑ k : Fin 1024, h (1024 * j + k.val) = ∑ n : Fin 4096, h n.val := by
  rw [← Cert.Lib.TileSum.sum_fin_mul 4 1024 h, Finset.sum_range]
  refine Finset.sum_congr rfl fun j _ => Finset.sum_congr rfl fun k _ => ?_
  rw [Nat.mul_comm]

end Cert.Spec

end
-- ==== Proof.Blocks.lean ====
/-
  Which entries of the arrays a grid point's blocks are.

  Grid point n = (i · 8 + j) · 4 + k  (i < 4, j < 8, k < 4) works on
    * rows 2048·i … of the flattened activations and columns 1024·k … of the contraction axis,
    * rows 2048·j … of the weights and the same columns 1024·k …,
    * columns 2048·j … of the bias row,
  and writes rows 2048·i …, columns 2048·j … of the result. In terms of n:  i = n / 32,  j = n / 4 mod 8,  k = n mod 4.
-/
import proofs.«103482_j45165876084880_1_alg».proof.Proof.Gen.KernelIdeal.Frame
import proofs.«103482_j45165876084880_1_alg».proof.Proof.Spec
import Idealize.ShloMosaic.Lib.Pipeline.Value

noncomputable section

open Idealize.ShloMosaic Idealize.ShloMosaic.TcCoe Idealize.SL.Sem Idealize.ShloMosaic.ValueIdx

namespace Cert.KernelIdeal.Blocks

open Cert.KernelIdeal Cert.KernelIdeal.Gen Cert.Spec

variable (m : (ℓ : Loc nD τ sig) → Buf (Elt Ideal) ℓ)

/-- The block numbers of the four windows at grid point `t`, in closed form: decided over the 128 points. -/
theorem block_numbers : ∀ t : Fin cfg0.N,
    win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = 0 ∧ win0_2.index t (1 : Fin 2) = t.val / 4 % 8
    ∧ win0_3.index t (0 : Fin 2) = t.val / 32 ∧ win0_3.index t (1 : Fin 2) = t.val / 4 % 8 :=
  (by decide +kernel : ∀ t : Fin grid0.N, _)

/-- Entry (p, l) of the activations' block at point `t`. -/
theorem act_block (c : Dev nD) (t : Fin cfg0.N) (p : Fin 2048) (l : Fin 1024) :
    (iblk m c 0 t : Vec Ideal S2048x1024 .bf16) (ix2 p l)
      = at2 (V m c main_v1 : S8192x4096.Idx → EReal) (2048 * (t.val / 32) + p.val) (1024 * (t.val % 4) + l.val) := by
  have hN : t.val < 128 := lt_of_lt_of_eq t.isLt (show cfg0.N = 128 from N_0)
  have hp := p.isLt
  have hl := l.isLt
  obtain ⟨e0, e1, -⟩ := block_numbers t
  unfold at2
  rw [dif_pos ⟨by omega, by omega⟩]
  unfold iblk
  rw [View.read_apply]
  show V m c main_v1 _ = V m c main_v1 _
  refine congrArg _ (funext fun a => Fin.ext ?_)
  match a with
  | ⟨0, _⟩ => show win0_0.index t (0 : Fin 2) * 2048 + 1 * p.val = 2048 * (t.val / 32) + p.val; rw [e0]; omega
  | ⟨1, _⟩ => show win0_0.index t (1 : Fin 2) * 1024 + 1 * l.val = 1024 * (t.val % 4) + l.val; rw [e1]; omega

/-- Entry (q, l) of the weights' block at point `t`. -/
theorem wt_block (c : Dev nD) (t : Fin cfg0.N) (q : Fin 2048) (l : Fin 1024) :
    (iblk m c 1 t : Vec Ideal S2048x1024 .bf16) (ix2 q l)
      = at2 (V m c main_v6 : S16384x4096.Idx → EReal) (2048 * (t.val / 4 % 8) + q.val) (1024 * (t.val % 4) + l.val) := by
  have hN : t.val < 128 := lt_of_lt_of_eq t.isLt (show cfg0.N = 128 from N_0)
  have hq := q.isLt
  have hl := l.isLt
  obtain ⟨-, -, e0, e1, -⟩ := block_numbers t
  unfold at2
  rw [dif_pos ⟨by omega, by omega⟩]
  unfold iblk
  rw [View.read_apply]
  show V m c main_v6 _ = V m c main_v6 _
  refine congrArg _ (funext fun a => Fin.ext ?_)
  match a with
  | ⟨0, _⟩ => show win0_1.index t (0 : Fin 2) * 2048 + 1 * q.val = 2048 * (t.val / 4 % 8) + q.val; rw [e0]; omega
  | ⟨1, _⟩ => show win0_1.index t (1 : Fin 2) * 1024 + 1 * l.val = 1024 * (t.val % 4) + l.val; rw [e1]; omega

/-- Entry (0, q) of the bias row's block at point `t`. -/
theorem bias_block (c : Dev nD) (t : Fin cfg0.N) (q : Fin 2048) :
    (iblk m c 2 t : Vec Ideal S1x2048 .f32) (ix2 (0 : Fin 1) q)
      = at2 (V m c main_v7 : S1x16384.Idx → EReal) 0 (2048 * (t.val / 4 % 8) + q.val) := by
  have hN : t.val < 128 := lt_of_lt_of_eq t.isLt (show cfg0.N = 128 from N_0)
  have hq := q.isLt
  obtain ⟨-, -, -, -, e0, e1, -⟩ := block_numbers t
  unfold at2
  rw [dif_pos ⟨by omega, by omega⟩]
  unfold iblk
  rw [View.read_apply]
  show V m c main_v7 _ = V m c main_v7 _
  refine congrArg _ (funext fun a => Fin.ext ?_)
  match a with
  | ⟨0, _⟩ => show win0_2.index t (0 : Fin 2) * 1 + 1 * 0 = 0; rw [e0]
  | ⟨1, _⟩ => show win0_2.index t (1 : Fin 2) * 2048 + 1 * q.val = 2048 * (t.val / 4 % 8) + q.val; rw [e1]; omega

end Cert.KernelIdeal.Blocks

end
-- ==== Proof.Accum.lean ====
/-
  The accumulation over the contraction axis, as arithmetic on one entry of one output block.

  The grid's 128 points are numbered n = (i · 8 + j) · 4 + k with i < 4 the row block, j < 8 the column block and
  k < 4 the contraction step, so k = n mod 4 moves fastest and the four steps of one output block are consecutive.
  At entry (p, q) of the block, step n contributes
      t(n) = Σ_{l < 1024} a[2048 · (n / 32) + p, 1024 · (n mod 4) + l] · w[2048 · (n / 4 mod 8) + q, 1024 · (n mod 4) + l].
  The accumulator restarts from zero when n mod 4 = 0 and adds t(n) at every step; so after the last step of the block
  it holds t(4g) + t(4g + 1) + t(4g + 2) + t(4g + 3), which is the whole contraction
      Σ_{l < 4096} a[2048 · (g / 8) + p, l] · w[2048 · (g mod 8) + q, l].
-/
import proofs.«103482_j45165876084880_1_alg».proof.Proof.Spec

noncomputable section

namespace Cert.Spec

open Idealize.ShloMosaic Idealize.ShloMosaic.ValueIdx

/-- What contraction step `n` adds at entry (p, q) of its output block. -/
def stepTerm (a : (⟨2, ![8192, 4096]⟩ : Shape).Idx → EReal) (w : (⟨2, ![16384, 4096]⟩ : Shape).Idx → EReal)
    (p q n : ℕ) : EReal :=
  ∑ l : Fin 1024, at2 a (2048 * (n / 32) + p) (1024 * (n % 4) + l.val) * at2 w (2048 * (n / 4 % 8) + q) (1024 * (n % 4) + l.val)

/-- The accumulator after step `n`: restarted from zero at the first step of each block. -/
def acc (f : ℕ → EReal) : ℕ → EReal
  | 0 => 0 + f 0
  | n + 1 => if (n + 1) % 4 = 0 then 0 + f (n + 1) else acc f n + f (n + 1)

theorem acc_zero (f : ℕ → EReal) : acc f 0 = 0 + f 0 := rfl
theorem acc_succ (f : ℕ → EReal) (n : ℕ) :
    acc f (n + 1) = if (n + 1) % 4 = 0 then 0 + f (n + 1) else acc f n + f (n + 1) := rfl

/-- After the last step of block `g` the accumulator holds the block's four terms. -/
theorem acc_last (f : ℕ → EReal) (g : ℕ) : acc f (4 * g + 3) = ∑ j ∈ Finset.range 4, f (4 * g + j) :=
  Cert.Lib.TileSum.acc_closed 4 (by norm_num) f (acc f) (acc_zero f) (acc_succ f) g 3 (by norm_num)

/-- The four terms of block `g` are the whole contraction of its row of activations with its row of weights. -/
theorem stretch_sum (a : (⟨2, ![8192, 4096]⟩ : Shape).Idx → EReal) (w : (⟨2, ![16384, 4096]⟩ : Shape).Idx → EReal)
    (p q g : ℕ) :
    ∑ j ∈ Finset.range 4, stepTerm a w p q (4 * g + j)
      = ∑ n : Fin 4096, at2 a (2048 * (g / 8) + p) n.val * at2 w (2048 * (g % 8) + q) n.val := by
  rw [← four_stretches (fun n => at2 a (2048 * (g / 8) + p) n * at2 w (2048 * (g % 8) + q) n)]
  refine Finset.sum_congr rfl fun j hj => ?_
  have hj4 : j < 4 := Finset.mem_range.mp hj
  unfold stepTerm
  have e1 : (4 * g + j) / 32 = g / 8 := by omega
  have e2 : (4 * g + j) % 4 = j := by omega
  have e3 : (4 * g + j) / 4 % 8 = g % 8 := by omega
  rw [e1, e2, e3]

/-- The whole contraction, with the rows named as indices. -/
theorem row_sum (a : (⟨2, ![8192, 4096]⟩ : Shape).Idx → EReal) (w : (⟨2, ![16384, 4096]⟩ : Shape).Idx → EReal)
    (r : Fin 8192) (c : Fin 16384) :
    ∑ n : Fin 4096, at2 a r.val n.val * at2 w c.val n.val = ∑ k : Fin 4096, a (ix2 r k) * w (ix2 c k) :=
  Finset.sum_congr rfl fun k _ => by rw [at2_eq, at2_eq]

end Cert.Spec

end
-- ==== Proof.Invariant.lean ====
/-
  What the output block holds after each grid point, entry by entry.

  Write a, w, b for the flattened activations, the scaled weights and the bias row as the kernel finds them, and t(n)
  for what step n adds at entry (p, q) (the product of the point's two input blocks there). Then after point n the
  entry holds the running accumulator — restarted from zero where n mod 4 = 0 — and, where n mod 4 = 3, that plus the
  bias entry. By induction on n: the first step of a block never reads what the step before left, a middle step reads
  an accumulator to which no bias was added yet, and so does the last. At the last step of a block the accumulator is
  the block's four terms, that is the whole contraction of the block's row of a with its row of w.
-/
import proofs.«103482_j45165876084880_1_alg».proof.Proof.Payloads
import proofs.«103482_j45165876084880_1_alg».proof.Proof.Pieces
import proofs.«103482_j45165876084880_1_alg».proof.Proof.Blocks
import proofs.«103482_j45165876084880_1_alg».proof.Proof.Accum

noncomputable section

open Idealize.ShloMosaic Idealize.ShloMosaic.TcCoe Idealize.SL.Sem Idealize.ShloMosaic.ValueIdx

namespace Cert.KernelIdeal.Inv

open Cert.KernelIdeal Cert.KernelIdeal.Gen Cert.Spec
open Cert.KernelIdeal.Pay Cert.KernelIdeal.Pieces Cert.KernelIdeal.Blocks

variable (m : (ℓ : Loc nD τ sig) → Buf (Elt Ideal) ℓ)

/-- The flattened activations, the scaled weights and the bias row, as the kernel finds them. -/
abbrev acts (c : Dev nD) : S8192x4096.Idx → EReal := V m c main_v1
abbrev wts (c : Dev nD) : S16384x4096.Idx → EReal := V m c main_v6
abbrev biasRow (c : Dev nD) : S1x16384.Idx → EReal := V m c main_v7

/-- Point `t`'s three input blocks, at their literal shapes. -/
abbrev actBlk (c : Dev nD) (t : Fin cfg0.N) : Vec Ideal S2048x1024 .bf16 := iblk m c 0 t
abbrev wtBlk (c : Dev nD) (t : Fin cfg0.N) : Vec Ideal S2048x1024 .bf16 := iblk m c 1 t
abbrev biasBlk (c : Dev nD) (t : Fin cfg0.N) : Vec Ideal S1x2048 .f32 := iblk m c 2 t

/-- The product of point `t`'s two input blocks at (p, q) is the term of step `t`. -/
theorem prod_block (c : Dev nD) (t : Fin cfg0.N) (p q : Fin 2048) :
    ∑ l : Fin 1024, actBlk m c t (ix2 p l) * wtBlk m c t (ix2 q l)
      = stepTerm (acts m c) (wts m c) p.val q.val t.val := by
  unfold stepTerm
  exact Finset.sum_congr rfl fun l _ => congrArg₂ (· * ·) (act_block m c t p l) (wt_block m c t q l)

/-- After the first step of a block: zero plus the step's term. -/
theorem at_first (c : Dev nD) (t : Fin cfg0.N) (h0 : t.val % 4 = 0) (p q : Fin 2048) :
    outsAt0 m c t.val t.isLt (ix2 p q) = 0 + stepTerm (acts m c) (wts m c) p.val q.val t.val := by
  have h1 : ¬t.val % 4 = 3 := by omega
  have e := (outsAt0_A m c t h0 h1).trans
    (first_step c (grid0.coords t) (ms0_0 t) (hs0_0 t) (ms0_1 t) (hs0_1 t) (ms0_2 t) (hs0_2 t) (ms0_3 t) (hs0_3 t) ((hcond0_0 t).mpr h0) (fun h => h1 ((hcond0_1 t).mp h))
      (iblk m c 0 t) (iblk m c 1 t) (iblk m c 2 t))
  refine ((congrFun e (ix2 p q)).trans (pay2_apply (k0_pay1 (F := Ideal)) (actBlk m c t) (wtBlk m c t) p q)).trans ?_
  exact congrArg₂ (· + ·) (pay1_apply (ix2 p q)) (prod_block m c t p q)

/-- After a middle step: what the step before left plus the step's term. -/
theorem at_middle (c : Dev nD) (t : Fin cfg0.N) (h0 : ¬t.val % 4 = 0) (h1 : ¬t.val % 4 = 3) (p q : Fin 2048) :
    outsAt0 m c t.val t.isLt (ix2 p q)
      = (outsAt0 m c (t.val - 1) (Nat.lt_of_le_of_lt (Nat.sub_le _ _) t.isLt)) (ix2 p q) + stepTerm (acts m c) (wts m c) p.val q.val t.val := by
  have e := (outsAt0_B m c t h0 h1).trans
    (middle_step c (grid0.coords t) (ms0_0 t) (hs0_0 t) (ms0_1 t) (hs0_1 t) (ms0_2 t) (hs0_2 t) (ms0_3 t) (hs0_3 t) (fun h => h0 ((hcond0_0 t).mp h)) (fun h => h1 ((hcond0_1 t).mp h))
      (iblk m c 0 t) (iblk m c 1 t) (iblk m c 2 t) (outsAt0 m c (t.val - 1) (Nat.lt_of_le_of_lt (Nat.sub_le _ _) t.isLt)))
  refine ((congrFun e (ix2 p q)).trans (pay2_apply (outsAt0 m c (t.val - 1) (Nat.lt_of_le_of_lt (Nat.sub_le _ _) t.isLt)) (actBlk m c t) (wtBlk m c t) p q)).trans ?_
  exact congrArg ((outsAt0 m c (t.val - 1) (Nat.lt_of_le_of_lt (Nat.sub_le _ _) t.isLt)) (ix2 p q) + ·) (prod_block m c t p q)

/-- After the last step of a block: what the step before left plus the step's term, plus the bias entry. -/
theorem at_last (c : Dev nD) (t : Fin cfg0.N) (h0 : ¬t.val % 4 = 0) (h1 : t.val % 4 = 3) (p q : Fin 2048) :
    outsAt0 m c t.val t.isLt (ix2 p q)
      = ((outsAt0 m c (t.val - 1) (Nat.lt_of_le_of_lt (Nat.sub_le _ _) t.isLt)) (ix2 p q) + stepTerm (acts m c) (wts m c) p.val q.val t.val)
        + at2 (biasRow m c) 0 (2048 * (t.val / 4 % 8) + q.val) := by
  have e := (outsAt0_C m c t h0 h1).trans
    (last_step c (grid0.coords t) (ms0_0 t) (hs0_0 t) (ms0_1 t) (hs0_1 t) (ms0_2 t) (hs0_2 t) (ms0_3 t) (hs0_3 t) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)))
  refine ((congrFun e (ix2 p q)).trans
    (pay3_apply (k0_pay2 (outsAt0 m c (t.val - 1) (Nat.lt_of_le_of_lt (Nat.sub_le _ _) t.isLt)) (actBlk m c t) (wtBlk m c t)) (biasBlk m c t) p q)).trans ?_
  exact congrArg₂ (· + ·)
    ((pay2_apply (outsAt0 m c (t.val - 1) (Nat.lt_of_le_of_lt (Nat.sub_le _ _) t.isLt)) (actBlk m c t) (wtBlk m c t) p q).trans
      (congrArg ((outsAt0 m c (t.val - 1) (Nat.lt_of_le_of_lt (Nat.sub_le _ _) t.isLt)) (ix2 p q) + ·) (prod_block m c t p q)))
    (bias_block m c t q)

/-- THE INVARIANT: the entry after point `n` is the running accumulator, plus the bias entry at a block's last step. -/
theorem running (c : Dev nD) (p q : Fin 2048) : ∀ (n : ℕ) (hn : n < cfg0.N),
    (¬n % 4 = 3 → outsAt0 m c n hn (ix2 p q) = acc (stepTerm (acts m c) (wts m c) p.val q.val) n)
    ∧ (n % 4 = 3 → outsAt0 m c n hn (ix2 p q)
        = acc (stepTerm (acts m c) (wts m c) p.val q.val) n + at2 (biasRow m c) 0 (2048 * (n / 4 % 8) + q.val))
  | 0, hn => ⟨fun _ => at_first m c ⟨0, hn⟩ rfl p q, fun h => absurd h (by decide)⟩
  | n + 1, hn => by
    have ih := running c p q n (Nat.lt_of_succ_lt hn)
    by_cases h0 : (n + 1) % 4 = 0
    · have e := at_first m c ⟨n + 1, hn⟩ h0 p q
      refine ⟨fun _ => e.trans ?_, fun h => by omega⟩
      rw [acc_succ, if_pos h0]
    · by_cases h1 : (n + 1) % 4 = 3
      · have e := at_last m c ⟨n + 1, hn⟩ h0 h1 p q
        refine ⟨fun h => absurd h1 h, fun _ => e.trans ?_⟩
        rw [acc_succ, if_neg h0]
        show (outsAt0 m c n _ (ix2 p q) + _) + _ = _
        rw [ih.1 (by omega)]
      · have e := at_middle m c ⟨n + 1, hn⟩ h0 h1 p q
        refine ⟨fun _ => e.trans ?_, fun h => absurd h h1⟩
        rw [acc_succ, if_neg h0]
        show outsAt0 m c n _ (ix2 p q) + _ = _
        rw [ih.1 (by omega)]

/-- At a block's last step the entry is the whole contraction of the block's row of activations with its row of
    weights, plus the bias entry. -/
theorem at_flush (c : Dev nD) (t : Fin cfg0.N) (h3 : t.val % 4 = 3) (p q : Fin 2048) :
    outsAt0 m c t.val t.isLt (ix2 p q)
      = (∑ n : Fin 4096, at2 (acts m c) (2048 * (t.val / 32) + p.val) n.val * at2 (wts m c) (2048 * (t.val / 4 % 8) + q.val) n.val)
        + at2 (biasRow m c) 0 (2048 * (t.val / 4 % 8) + q.val) := by
  rw [(running m c p q t.val t.isLt).2 h3]
  obtain ⟨g, hg⟩ : ∃ g, t.val = 4 * g + 3 := ⟨t.val / 4, by omega⟩
  rw [hg, acc_last, stretch_sum]
  have e1 : (4 * g + 3) / 32 = g / 8 := by omega
  have e2 : (4 * g + 3) / 4 % 8 = g % 8 := by omega
  rw [e1, e2]

end Cert.KernelIdeal.Inv

end
-- ==== Proof.KernelArray.lean ====
/-
  The kernel's result array after the run.

  Only the last step of each output block writes the block back, and then the block holds, at (p, q), the whole
  contraction of row 2048·i + p of the activations with row 2048·j + q of the weights, plus bias[2048·j + q]: that is
  entry (2048·i + p, 2048·j + q) of the one function `G2` of the three arrays. The 32 blocks (i < 4, j < 8) tile the
  [8192, 16384] array — the point that writes row r, column s is ((r / 2048) · 8 + s / 2048) · 4 + 3 — so the array
  ends holding `G2` everywhere.
-/
import proofs.«103482_j45165876084880_1_alg».proof.Proof.Invariant

noncomputable section

open Idealize.ShloMosaic Idealize.ShloMosaic.TcCoe Idealize.SL.Sem Idealize.ShloMosaic.ValueIdx
open Idealize.ShloMosaic.Pipeline (Dat)

namespace Cert.KernelIdeal.Arr

open Cert.KernelIdeal Cert.KernelIdeal.Gen Cert.Spec
open Cert.KernelIdeal.Blocks Cert.KernelIdeal.Inv

variable (m : (ℓ : Loc nD τ sig) → Buf (Elt Ideal) ℓ)

/-- `G2` with its rows named by their numbers. -/
theorem G2_at (a : (⟨2, ![8192, 4096]⟩ : Shape).Idx → EReal) (w : (⟨2, ![16384, 4096]⟩ : Shape).Idx → EReal)
    (b : (⟨2, ![1, 16384]⟩ : Shape).Idx → EReal) (i : (⟨2, ![8192, 16384]⟩ : Shape).Idx) :
    G2 a w b i = (∑ n : Fin 4096, at2 a (i 0).val n.val * at2 w (i 1).val n.val) + at2 b 0 (i 1).val := by
  unfold G2
  rw [row_sum a w (i 0) (i 1)]
  exact congrArg (_ + ·) (at2_eq b (0 : Fin 1) (i 1)).symm

/-- An entry of the block a write-back point holds is `G2` at the array index the entry is written to. -/
theorem flush_entry (c : Dev nD) (t : Fin cfg0.N) (h3 : t.val % 4 = 3) (y : S2048x2048.Idx) (i : S8192x16384.Idx)
    (hi0 : (i 0).val = 2048 * (t.val / 32) + (y 0).val) (hi1 : (i 1).val = 2048 * (t.val / 4 % 8) + (y 1).val) :
    outsAt0 m c t.val t.isLt y = G2 (acts m c) (wts m c) (biasRow m c) i := by
  rw [G2_at, hi0, hi1]
  exact (congrArg (outsAt0 m c t.val t.isLt) (eq_ix2 y)).trans (at_flush m c t h3 (y 0) (y 1))

/-- WHAT A WRITE-BACK POINT WRITES is its block of `G2`. -/
theorem flushed_eq (c : Dev nD) (t : Fin cfg0.N) (hf : (cfg0.win 3).flush t = true) :
    (dats m 0 c).flushed 3 t
      = ((cfg0.win 3).blk t).view.read (Elt Ideal) (G2 (acts m c) (wts m c) (biasRow m c)) := by
  have h3 : t.val % 4 = 3 := (flush0_3 t).mp hf
  obtain ⟨-, -, -, -, -, -, e0, e1⟩ := block_numbers t
  show (cfg0.win 3).cut (grid0.coords t) ((dats m 0 c).after 3 t) = _
  rw [after0_3]
  funext y
  show outsAt0 m c t.val t.isLt y = G2 (acts m c) (wts m c) (biasRow m c) (((cfg0.win 3).blk t).view.emb y)
  refine flush_entry m c t h3 y _ ?_ ?_
  · show win0_3.index t (0 : Fin 2) * 2048 + 1 * (y 0).val = 2048 * (t.val / 32) + (y 0).val
    rw [e0]; omega
  · show win0_3.index t (1 : Fin 2) * 2048 + 1 * (y 1).val = 2048 * (t.val / 4 % 8) + (y 1).val
    rw [e1]; omega

/-- An index of the array is in point `t`'s block iff each coordinate is in the block's range on its axis. -/
theorem mem_blk (t : Fin cfg0.N) (i : S8192x16384.Idx) :
    i ∈ ((cfg0.win 3).blk t).view.set ↔ ∀ a : Fin 2, win0_3.index t a * S2048x2048.size a ≤ (i a).val
      ∧ (i a).val < win0_3.index t a * S2048x2048.size a + S2048x2048.size a := by
  show i ∈ ((View.whole main_v8).slice (win0_3.rect t)).set ↔ _
  rw [View.set_slice_whole, Rect.mem_set_unit]
  exact Iff.rfl

/-- Every index of the array is in the block of some write-back point. -/
theorem cover (i : S8192x16384.Idx) :
    ∃ t : Fin cfg0.N, (cfg0.win 3).flush t = true ∧ i ∈ ((cfg0.win 3).blk t).view.set := by
  have hi0 : (i 0).val < 8192 := (i 0).isLt
  have hi1 : (i 1).val < 16384 := (i 1).isLt
  obtain ⟨tv, htv⟩ : ∃ tv, tv = ((i 0).val / 2048 * 8 + (i 1).val / 2048) * 4 + 3 := ⟨_, rfl⟩
  have hlt : tv < cfg0.N := by rw [show cfg0.N = 128 from N_0]; omega
  have b0 : win0_3.index ⟨tv, hlt⟩ (0 : Fin 2) = tv / 32 := (block_numbers ⟨tv, hlt⟩).2.2.2.2.2.2.1
  have b1 : win0_3.index ⟨tv, hlt⟩ (1 : Fin 2) = tv / 4 % 8 := (block_numbers ⟨tv, hlt⟩).2.2.2.2.2.2.2
  refine ⟨⟨tv, hlt⟩, (flush0_3 _).mpr (by show tv % 4 = 3; omega), ?_⟩
  rw [mem_blk]
  intro a
  match a with
  | ⟨0, _⟩ =>
    show win0_3.index ⟨tv, hlt⟩ (0 : Fin 2) * 2048 ≤ (i 0).val ∧ (i 0).val < win0_3.index ⟨tv, hlt⟩ (0 : Fin 2) * 2048 + 2048
    rw [b0]; omega
  | ⟨1, _⟩ =>
    show win0_3.index ⟨tv, hlt⟩ (1 : Fin 2) * 2048 ≤ (i 1).val ∧ (i 1).val < win0_3.index ⟨tv, hlt⟩ (1 : Fin 2) * 2048 + 2048
    rw [b1]; omega

/-- THE RESULT ARRAY after the run is `G2` of the three arrays the kernel was given. -/
theorem final (c : Dev nD) :
    (dats m 0 c).arrAt 3 cfg0.N = G2 (acts m c) (wts m c) (biasRow m c) :=
  (dats m 0 c).arrAt_eq_of_cover 3 _ (flushed_eq m c) cover

end Cert.KernelIdeal.Arr

end
-- ==== Proof.Flatten.lean ====
/-
  Flattening the two leading axes and unflattening the result changes nothing.

  The kernel reshapes the [4, 2048, 4096] activations to [8192, 4096] rows (row s · 2048 + r is entry (s, r)), the
  bias to a [1, 16384] row, computes the flattened result `G2`, and reshapes it back to [4, 2048, 16384]. A reshape
  keeps row-major positions, so entry (s, r, n) of the reshaped result is entry (s · 2048 + r, n) of `G2`, whose row of
  activations is row (s, r) of the original array and whose bias entry is bias[n]: the function `G`.
-/
import proofs.«103482_j45165876084880_1_alg».proof.Proof.Spec
import Idealize.ShloMosaic.Lib.Pipeline.Value

noncomputable section

namespace Cert.Spec

open Idealize.ShloMosaic Idealize.ShloMosaic.ValueIdx

theorem G_of_flat (a : (⟨3, ![4, 2048, 4096]⟩ : Shape).Idx → EReal) (w : (⟨2, ![16384, 4096]⟩ : Shape).Idx → EReal)
    (b : (⟨1, ![16384]⟩ : Shape).Idx → EReal)
    (ha : (⟨3, ![4, 2048, 4096]⟩ : Shape).ShapeCasts ⟨2, ![8192, 4096]⟩)
    (hb : (⟨1, ![16384]⟩ : Shape).ShapeCasts ⟨2, ![1, 16384]⟩)
    (ho : (⟨2, ![8192, 16384]⟩ : Shape).ShapeCasts ⟨3, ![4, 2048, 16384]⟩) :
    shapeCast ⟨3, ![4, 2048, 16384]⟩ (G2 (shapeCast ⟨2, ![8192, 4096]⟩ a ha) w (shapeCast ⟨2, ![1, 16384]⟩ b hb)) ho
      = G a w b := by
  funext i
  obtain ⟨s, r, n, rfl⟩ : ∃ (s : Fin 4) (r : Fin 2048) (n : Fin 16384), i = ix3 s r n := ⟨i 0, i 1, i 2, eq_ix3 i⟩
  have hs := s.isLt
  have hr := r.isLt
  rw [shapeCast_apply _ ho (ix3 s r n) (ix2 (⟨s.val * 2048 + r.val, by omega⟩ : Fin 8192) n)
    (by rw [Shape.rowMajor_val_two, Shape.rowMajor_val_three]; rfl)]
  unfold G2 G
  refine congrArg₂ (· + ·) (Finset.sum_congr rfl fun k _ => congrArg (· * _) ?_) ?_
  · exact shapeCast_apply a ha (ix2 (⟨s.val * 2048 + r.val, by omega⟩ : Fin 8192) k) (ix3 s r k)
      (by rw [Shape.rowMajor_val_two, Shape.rowMajor_val_three]; rfl)
  · exact shapeCast_apply b hb (ix2 (0 : Fin 1) n) (ix1 n)
      (by rw [Shape.rowMajor_val_two, Shape.rowMajor_val_one]; show n.val = 0 * 16384 + n.val; omega)

end Cert.Spec

end
-- ==== Proof.HostSides.lean ====
/-
  The operations around the kernel, and the kernel program's run read as a value.

  Before the kernel the program flattens the activations to [8192, 4096] rows, scales the converted integer weights row
  by row, and lays the bias out as a [1, 16384] row; the two changes of float format are the identity on the extended
  reals. After the kernel it reshapes the [8192, 16384] result to [4, 2048, 16384]. With the result array at `G2` of
  those three arrays, the program's result is `G` of the activations, the scaled weights and the bias.
-/
import proofs.«103482_j45165876084880_1_alg».proof.Proof.KernelArray
import proofs.«103482_j45165876084880_1_alg».proof.Proof.Flatten
import Idealize.ShloMosaic.Lib.StableHlo.Run

noncomputable section

open Idealize.ShloMosaic Idealize.ShloMosaic.TcCoe Idealize.SL.Sem Idealize.ShloMosaic.ValueIdx
open Idealize.ShloMosaic.StableHlo Idealize.ShloMosaic.Tactic
open Idealize.ShloMosaic.Pipeline (Dat)

namespace Cert.KernelIdeal.Host

open Cert.KernelIdeal Cert.KernelIdeal.Gen Cert.Spec
open Cert.KernelIdeal.Inv Cert.KernelIdeal.Arr

variable (m : (ℓ : Loc nD τ sig) → Buf (Elt Ideal) ℓ) (ρ : Dev nD → PrngReg)

/-- The weights as the program scales them: the integer weights converted, times the scale of their row. -/
def scaled (x1 : (⟨S16384x4096, .i32⟩ : BufTy).Contents (Elt Ideal)) (x2 : (⟨S16384, .f32⟩ : BufTy).Contents (Elt Ideal)) :
    (⟨S16384x4096, .f32⟩ : BufTy).Contents (Elt Ideal) :=
  mulf (F := Ideal) (sitofp .f32 x1)
    (broadcastInDim S16384x4096 ![0, 1] bcast_S16384x1_S16384x4096_0_1 (broadcastInDim S16384x1 ![0] bcast_S16384_S16384x1_0 x2))

/-- The kernel finds the activations flattened. -/
theorem acts_eq (c : Dev nD) :
    acts m c = shapeCast S8192x4096 (m ((c : Thread nD τ).loc main_arg0)) shapeCasts_S4x2048x4096_S8192x4096 := by
  show StableHlo.after hostOps0 (fun b => m (c, b)) (Proc.devRef .tc main_v1) = _
  after_results
  rfl

/-- The kernel finds the scaled weights. -/
theorem wts_eq (c : Dev nD) :
    wts m c = scaled (m ((c : Thread nD τ).loc main_arg1)) (m ((c : Thread nD τ).loc main_arg2)) := by
  show StableHlo.after hostOps0 (fun b => m (c, b)) (Proc.devRef .tc main_v6) = _
  after_results
  rfl

/-- The kernel finds the bias as one row. -/
theorem bias_eq (c : Dev nD) :
    biasRow m c = shapeCast S1x16384 (m ((c : Thread nD τ).loc main_arg3)) shapeCasts_S16384_S1x16384 := by
  show StableHlo.after hostOps0 (fun b => m (c, b)) (Proc.devRef .tc main_v7) = _
  after_results
  rfl

/-- The program's result: the kernel's result array reshaped. -/
theorem result_eq (c : Dev nD) :
    Pipeline.afterTail₀ cfgs (dats m) 0 (V0 m) [hostOps1] c main_v9
      = G (m ((c : Thread nD τ).loc main_arg0))
          (scaled (m ((c : Thread nD τ).loc main_arg1)) (m ((c : Thread nD τ).loc main_arg2)))
          (m ((c : Thread nD τ).loc main_arg3)) := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.devRef .tc main_v8)
      = G2 (acts m c) (wts m c) (biasRow m c) :=
    (Pipeline.withArrays_arr spec0 launch0.win.arr_inj c _ _ 3).trans (final m c)
  rw [e, acts_eq, wts_eq, bias_eq]
  exact G_of_flat _ _ _ shapeCasts_S4x2048x4096_S8192x4096 shapeCasts_S16384_S1x16384 shapeCasts_S8192x16384_S4x2048x16384

/-- THE KERNEL PROGRAM'S RUN, read: its result is `G` of its arguments, which end unchanged. -/
theorem run : θ_run defs (onTc (τ := τ) (main (F := Ideal))) ⟨m, fun _ => 0, ρ⟩ fun r => ∀ c : Dev nD,
      r.2.mem ((c.tc : Thread nD τ).loc main_v9)
        = G (m ((c.tc : Thread nD τ).loc main_arg0))
            (scaled (m ((c.tc : Thread nD τ).loc main_arg1)) (m ((c.tc : Thread nD τ).loc main_arg2)))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Host

end
-- ==== Proof.RefIsG.lean ====
/-
  The reference computes `G`.

  Its last operation adds the bias, spread over the two leading axes, to a product that contracts axis 2 of the
  activations with axis 1 of the scaled weights: entry (s, r, n) is Σ_k a[s, r, k] · w[n, k] + b[n], with w the weights
  as the reference scales them (the integer weights converted, times the per-row scale).
-/
import proofs.«103482_j45165876084880_1_alg».proof.Proof.Gen.ReferenceIdeal.Read
import proofs.«103482_j45165876084880_1_alg».proof.Proof.Spec

noncomputable section

namespace Cert.ReferenceIdeal.RefValue

open Cert.ReferenceIdeal Cert.ReferenceIdeal.Read Cert.Spec
open Idealize.ShloMosaic Idealize.ShloMosaic.ValueIdx

theorem ref_is_G (x0 : (⟨S4x2048x4096, .f32⟩ : BufTy).Contents (Elt Ideal)) (x1 : (⟨S16384x4096, .i32⟩ : BufTy).Contents (Elt Ideal))
    (x2 x3 : (⟨S16384, .f32⟩ : BufTy).Contents (Elt Ideal)) :
    val_main_v7 (F := Ideal) x0 x1 x2 x3 = G x0 (val_main_v3 (F := Ideal) x1 x2) x3 := by
  funext i
  have el : ∀ k, lidx_main_v4 i k = ix3 (i 0) (i 1) k := fun k =>
    funext fun a => Fin.ext (by match a with | ⟨0, _⟩ => rfl | ⟨1, _⟩ => rfl | ⟨2, _⟩ => rfl)
  have er : ∀ k, ridx_main_v4 i k = ix2 (i 2) k := fun k =>
    funext fun a => Fin.ext (by match a with | ⟨0, _⟩ => rfl | ⟨1, _⟩ => rfl)
  have eb : idx_main_v5 (idx_main_v6 i) = ix1 (i 2) :=
    funext fun a => Fin.ext (by match a with | ⟨0, _⟩ => rfl)
  rw [val_main_v7_apply, val_main_v4_apply, val_main_v6_apply, val_main_v5_apply]
  unfold G
  simp only [el, er, eb, Ideal.addf_def]
  rfl

end Cert.ReferenceIdeal.RefValue

end
-- ==== Proof.lean ====
/-
  A dense layer with integer weights scaled per output row:
      out[s, r, n] = Σ_{k < 4096} input[s, r, k] · (real(weight[n, k]) · scale[n]) + bias[n].

  The reference computes exactly this: one contraction over all 4096 k, then the bias. The kernel flattens the two
  leading axes to 8192 rows and tiles the [8192, 16384] result into 2048 × 2048 blocks; for each block it walks the
  contraction axis in four stretches of 1024, starting the block from zero, adding the product of the stretch's two
  input blocks at each step and the bias row at the last, and only then writes the block back. On the extended reals a
  change of float format is the identity, zero is neutral for addition, and a sum may be regrouped freely, so
  ((0 + t₀) + t₁ + t₂ + t₃) + bias with tⱼ the partial sum of stretch j is the reference's entry: nothing here needs
  the inputs to be finite. The two programs scale the weights by the same operations on the same arguments.

  The parts: what the body stores (Payloads), what each control case leaves (Pieces), which entries a grid point's
  blocks are (Blocks), the accumulator's arithmetic (Accum, over a general lemma on restarted accumulators), the block
  after every grid point (Invariant), the result array (KernelArray), the reshapes around the kernel (Flatten,
  HostSides), the reference (RefIsG). The ideal pass rewrote nothing, so the idealization claim is trivial.
-/
import proofs.«103482_j45165876084880_1_alg».proof.Defs
import proofs.«103482_j45165876084880_1_alg».proof.Proof.Gen.Kernel
import proofs.«103482_j45165876084880_1_alg».proof.Proof.Gen.Kernel.Skeleton
import proofs.«103482_j45165876084880_1_alg».proof.Proof.Gen.Kernel.Launch
import proofs.«103482_j45165876084880_1_alg».proof.Proof.Gen.Kernel.Points
import proofs.«103482_j45165876084880_1_alg».proof.Proof.Gen.Kernel.Frame
import proofs.«103482_j45165876084880_1_alg».proof.Proof.Gen.KernelIdeal
import proofs.«103482_j45165876084880_1_alg».proof.Proof.Gen.KernelIdeal.Skeleton
import proofs.«103482_j45165876084880_1_alg».proof.Proof.Gen.KernelIdeal.Launch
import proofs.«103482_j45165876084880_1_alg».proof.Proof.Gen.KernelIdeal.Points
import proofs.«103482_j45165876084880_1_alg».proof.Proof.Gen.KernelIdeal.Frame
import proofs.«103482_j45165876084880_1_alg».proof.Proof.Gen.ReferenceIdeal
import proofs.«103482_j45165876084880_1_alg».proof.Proof.Gen.Pre_finite_inputs
import proofs.«103482_j45165876084880_1_alg».proof.Proof.Gen.ReferenceIdeal.Run
import proofs.«103482_j45165876084880_1_alg».proof.Proof.Gen.ReferenceIdeal.Read
import proofs.«103482_j45165876084880_1_alg».proof.Proof.HostSides
import proofs.«103482_j45165876084880_1_alg».proof.Proof.RefIsG
import Idealize.ShloMosaic.Adequacy
import Idealize.ShloMosaic.Init

noncomputable section

namespace Cert.Proof

open Idealize.ShloMosaic Idealize.SL.Sem

/-- The kernel program as printed runs and leaves its arguments alone. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- Both programs end at `G` of the activations, the scaled weights and the bias; the two spellings of the scaled
    weights are the same operations of the same arguments. -/
theorem algebraic : Cert.algebraic_KernelIdeal_ReferenceIdeal := by
  intro m ρ m' ρ' _ hagree
  refine ⟨_, Cert.KernelIdeal.Host.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_is_G,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
